-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x50 : Shape := ⟨2, ![16384, 50]⟩
abbrev S16384x50x128 : Shape := ⟨3, ![16384, 50, 128]⟩
abbrev S_ : Shape := ⟨0, ![]⟩

class Facts : Prop where
  bcast_S_S16384x50x128 : S_.BroadcastsInDim S16384x50x128 (![] : Fin 0 → Fin S16384x50x128.rank)
  reducesTo_S16384x50x128_S_d0_1_2 : S16384x50x128.ReducesTo [0, 1, 2] S_
  h_S_ : 0 < S_.numel

variable [Facts]

def fn {F : FTy → Type} [FloatOps F] (main_arg0 : IVec S16384x50 32) (main_arg1 : IVec S16384x50 32) (main_arg2 : FVec F S16384x50x128 .f32) (main_arg3 : FVec F S16384x50x128 .f32) : IVec S_ 1 :=
  let main_v0 : FVec F S16384x50x128 .f32 := Host.absf main_arg2
  let main_cst : FVec F S_ .f32 := constant S_ .f32 0x7F800000#32
  let main_v1 : FVec F S16384x50x128 .f32 := broadcastInDim S16384x50x128 ![] bcast_S_S16384x50x128 main_cst
  let main_v2 : IVec S16384x50x128 1 := cmpf .olt main_v0 main_v1
  let main_c : IVec S_ 1 := constantI S_ 1 1#1
  let main_v3 : IVec S_ 1 := (fun x v => Host.reduce IntOp.andi x v reducesTo_S16384x50x128_S_d0_1_2 h_S_) main_v2 main_c
  let main_v4 : FVec F S16384x50x128 .f32 := Host.absf main_arg3
  let main_cst_0 : FVec F S_ .f32 := constant S_ .f32 0x7F800000#32
  let main_v5 : FVec F S16384x50x128 .f32 := broadcastInDim S16384x50x128 ![] bcast_S_S16384x50x128 main_cst_0
  let main_v6 : IVec S16384x50x128 1 := cmpf .olt main_v4 main_v5
  let main_c_1 : IVec S_ 1 := constantI S_ 1 1#1
  let main_v7 : IVec S_ 1 := (fun x v => Host.reduce IntOp.andi x v reducesTo_S16384x50x128_S_d0_1_2 h_S_) main_v6 main_c_1
  let main_v8 : IVec S_ 1 := andi main_v3 main_v7
  main_v8
-- ==== Kernel.lean ====
abbrev S16384x50 : Shape := ⟨2, ![16384, 50]⟩
abbrev S16384x50x128 : Shape := ⟨3, ![16384, 50, 128]⟩
abbrev S16384x1 : Shape := ⟨2, ![16384, 1]⟩
abbrev S256x50 : Shape := ⟨2, ![256, 50]⟩
abbrev S256x50x128 : Shape := ⟨3, ![256, 50, 128]⟩
abbrev S256x1 : Shape := ⟨2, ![256, 1]⟩
abbrev S256x128 : Shape := ⟨2, ![256, 128]⟩
abbrev S256x8x128 : Shape := ⟨3, ![256, 8, 128]⟩
abbrev S256x8 : Shape := ⟨2, ![256, 8]⟩
abbrev S256x8x1 : Shape := ⟨3, ![256, 8, 1]⟩
abbrev S256x2x128 : Shape := ⟨3, ![256, 2, 128]⟩
abbrev S256x2 : Shape := ⟨2, ![256, 2]⟩
abbrev S256x2x1 : Shape := ⟨3, ![256, 2, 1]⟩
abbrev S256 : Shape := ⟨1, ![256]⟩

abbrev nBuf : Space → Nat
  | .hbm => 5
  | .vmem => 10
  | .smem => 0
  | _ => 0

abbrev bufTy : (tb : Table) → Fin (tcTables nBuf tb) → BufTy
  | .hbm, ⟨0, _⟩ => ⟨S16384x50, .i32⟩
  | .hbm, ⟨1, _⟩ => ⟨S16384x50, .i32⟩
  | .hbm, ⟨2, _⟩ => ⟨S16384x50x128, .f32⟩
  | .hbm, ⟨3, _⟩ => ⟨S16384x50x128, .f32⟩
  | .hbm, ⟨4, _⟩ => ⟨S16384x1, .f32⟩
  | .local _ .vmem, ⟨0, _⟩ => ⟨S256x50, .i32⟩
  | .local _ .vmem, ⟨1, _⟩ => ⟨S256x50, .i32⟩
  | .local _ .vmem, ⟨2, _⟩ => ⟨S256x50, .i32⟩
  | .local _ .vmem, ⟨3, _⟩ => ⟨S256x50, .i32⟩
  | .local _ .vmem, ⟨4, _⟩ => ⟨S256x50x128, .f32⟩
  | .local _ .vmem, ⟨5, _⟩ => ⟨S256x50x128, .f32⟩
  | .local _ .vmem, ⟨6, _⟩ => ⟨S256x50x128, .f32⟩
  | .local _ .vmem, ⟨7, _⟩ => ⟨S256x50x128, .f32⟩
  | .local _ .vmem, ⟨8, _⟩ => ⟨S256x1, .f32⟩
  | .local _ .vmem, ⟨9, _⟩ => ⟨S256x1, .f32⟩
  | _, _ => ⟨S16384x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x50 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x50 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x50x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x50x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S256x50_S256x50_0_0 : ∀ a, (![0, 0] : Fin 2 → Nat) a + S256x50.size a ≤ S256x50.size a
  h_S256x50 : 0 < S256x50.numel
  inb_S256x50x128_S256x8x128_0_0_0 : ∀ a, (![0, 0, 0] : Fin 3 → Nat) a + S256x8x128.size a ≤ S256x50x128.size a
  h_S256x8x128 : 0 < S256x8x128.numel
  slices_S256x50_o0_0_S256x8 : S256x50.Slices ![0, 0] S256x8
  shapeCasts_S256x8_S256x8x1 : S256x8.ShapeCasts S256x8x1
  broadcasts_S256x8x1_S256x8x128 : S256x8x1.Broadcasts S256x8x128
  reduces_S256x8x128_S256x128 : S256x8x128.Reduces [1] S256x128
  inb_S256x50x128_S256x8x128_0_8_0 : ∀ a, (![0, 8, 0] : Fin 3 → Nat) a + S256x8x128.size a ≤ S256x50x128.size a
  slices_S256x50_o0_8_S256x8 : S256x50.Slices ![0, 8] S256x8
  inb_S256x50x128_S256x8x128_0_16_0 : ∀ a, (![0, 16, 0] : Fin 3 → Nat) a + S256x8x128.size a ≤ S256x50x128.size a
  slices_S256x50_o0_16_S256x8 : S256x50.Slices ![0, 16] S256x8
  inb_S256x50x128_S256x8x128_0_24_0 : ∀ a, (![0, 24, 0] : Fin 3 → Nat) a + S256x8x128.size a ≤ S256x50x128.size a
  slices_S256x50_o0_24_S256x8 : S256x50.Slices ![0, 24] S256x8
  inb_S256x50x128_S256x8x128_0_32_0 : ∀ a, (![0, 32, 0] : Fin 3 → Nat) a + S256x8x128.size a ≤ S256x50x128.size a
  slices_S256x50_o0_32_S256x8 : S256x50.Slices ![0, 32] S256x8
  inb_S256x50x128_S256x8x128_0_40_0 : ∀ a, (![0, 40, 0] : Fin 3 → Nat) a + S256x8x128.size a ≤ S256x50x128.size a
  slices_S256x50_o0_40_S256x8 : S256x50.Slices ![0, 40] S256x8
  inb_S256x50x128_S256x2x128_0_48_0 : ∀ a, (![0, 48, 0] : Fin 3 → Nat) a + S256x2x128.size a ≤ S256x50x128.size a
  h_S256x2x128 : 0 < S256x2x128.numel
  slices_S256x50_o0_48_S256x2 : S256x50.Slices ![0, 48] S256x2
  shapeCasts_S256x2_S256x2x1 : S256x2.ShapeCasts S256x2x1
  broadcasts_S256x2x1_S256x2x128 : S256x2x1.Broadcasts S256x2x128
  reduces_S256x2x128_S256x128 : S256x2x128.Reduces [1] S256x128
  reduces_S256x128_S256 : S256x128.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x50.size a ≤ S16384x50.size a
  hwx0_0 : ∀ i : grid0.Coords, EltTy.bits .i32 = 32 ∨ (Rect.block (s := S16384x50) S256x50.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x50.size a ≤ S16384x50.size a
  hwx0_1 : ∀ i : grid0.Coords, EltTy.bits .i32 = 32 ∨ (Rect.block (s := S16384x50) S256x50.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x50x128.size a ≤ S16384x50x128.size a
  hwx0_2 : ∀ i : grid0.Coords, EltTy.bits .f32 = 32 ∨ (Rect.block (s := S16384x50x128) S256x50x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x50x128.size a ≤ S16384x50x128.size a
  hwx0_3 : ∀ i : grid0.Coords, EltTy.bits .f32 = 32 ∨ (Rect.block (s := S16384x50x128) S256x50x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S16384x1.size a
  hwx0_4 : ∀ i : grid0.Coords, EltTy.bits .f32 = 32 ∨ (Rect.block (s := S16384x1) S256x1.size (cc0_transform_4 i) (hinb0_4 i)).WholeWords (EltTy.packing .f32)

variable [Facts₀]

abbrev win0_0 : Pipeline.Window sig grid0 :=
  Pipeline.Window.ofSpec (Memref.whole main_arg0) S256x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x50x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x50x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x50 : Shape := ⟨2, ![16384, 50]⟩
abbrev S16384x50x128 : Shape := ⟨3, ![16384, 50, 128]⟩
abbrev S_ : Shape := ⟨0, ![]⟩
abbrev S16384x50x50 : Shape := ⟨3, ![16384, 50, 50]⟩
abbrev S16384x50x1 : Shape := ⟨3, ![16384, 50, 1]⟩
abbrev S16384x1x50 : Shape := ⟨3, ![16384, 1, 50]⟩
abbrev S16384 : Shape := ⟨1, ![16384]⟩
abbrev S16384x1 : Shape := ⟨2, ![16384, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S16384x50, .i32⟩
  | .hbm, ⟨2, _⟩ => ⟨S16384x50x128, .f32⟩
  | .hbm, ⟨3, _⟩ => ⟨S16384x50x128, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16384x50, .i32⟩
  | .hbm, ⟨8, _⟩ => ⟨S16384x50, .i32⟩
  | .hbm, ⟨9, _⟩ => ⟨S_, .i32⟩
  | .hbm, ⟨10, _⟩ => ⟨S16384x50, .i32⟩
  | .hbm, ⟨11, _⟩ => ⟨S16384x50, .i32⟩
  | .hbm, ⟨12, _⟩ => ⟨S16384x50, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S16384x50, .i32⟩
  | .hbm, ⟨17, _⟩ => ⟨S16384x50, .i32⟩
  | .hbm, ⟨18, _⟩ => ⟨S_, .i32⟩
  | .hbm, ⟨19, _⟩ => ⟨S16384x50, .i32⟩
  | .hbm, ⟨20, _⟩ => ⟨S16384x50, .i32⟩
  | .hbm, ⟨21, _⟩ => ⟨S16384x50, .f32⟩
  | .hbm, ⟨22, _⟩ => ⟨S16384x50x50, .f32⟩
  | .hbm, ⟨23, _⟩ => ⟨S16384x50x1, .f32⟩
  | .hbm, ⟨24, _⟩ => ⟨S16384x50x50, .f32⟩
  | .hbm, ⟨25, _⟩ => ⟨S16384x50x50, .f32⟩
  | .hbm, ⟨26, _⟩ => ⟨S16384x1x50, .f32⟩
  | .hbm, ⟨27, _⟩ => ⟨S16384x50x50, .f32⟩
  | .hbm, ⟨28, _⟩ => ⟨S16384x50x50, .f32⟩
  | .hbm, ⟨29, _⟩ => ⟨S_, .f32⟩
  | .hbm, ⟨30, _⟩ => ⟨S16384, .f32⟩
  | .hbm, ⟨31, _⟩ => ⟨S16384x1, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_c_1 : Ref sig .tc := ⟨.hbm, 13, rfl⟩
abbrev main_c_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]

class Facts₀ : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S16384x50x1_S16384x50x50_0_1_2 : S16384x50x1.BroadcastsInDim S16384x50x50 (![0, 1, 2] : Fin 3 → Fin S16384x50x50.rank)
  bcast_S16384x50_S16384x1x50_0_2 : S16384x50.BroadcastsInDim S16384x1x50 (![0, 2] : Fin 2 → Fin S16384x1x50.rank)
  bcast_S16384x1x50_S16384x50x50_0_1_2 : S16384x1x50.BroadcastsInDim S16384x50x50 (![0, 1, 2] : Fin 3 → Fin S16384x50x50.rank)
  reducesTo_S16384x50x50_S16384_d1_2 : S16384x50x50.ReducesTo [1, 2] S16384
  h_S_ : 0 < S_.numel
  bcast_S16384_S16384x1_0 : S16384.BroadcastsInDim S16384x1 (![0] : Fin 1 → Fin S16384x1.rank)
  dot_S16384x50x128_S16384x50x128_S16384x50x50_2_2_1_1_0_0_wf : DotDims.WF S16384x50x128 S16384x50x128 S16384x50x50 [2] [2] [1] [1] [0] [0]

variable [Facts₀]

def dot_S16384x50x128_S16384x50x128_S16384x50x50_2_2_1_1_0_0 : DotDims S16384x50x128 S16384x50x128 S16384x50x50 where
  lhsContracting := [2]
  rhsContracting := [2]
  lhsNonContracting := [1]
  rhsNonContracting := [1]
  lhsBatch := [0]
  rhsBatch := [0]
  wf := dot_S16384x50x128_S16384x50x128_S16384x50x50_2_2_1_1_0_0_wf

class Facts : Prop extends Facts₀ where

variable [Facts]
-- ==== Proof.LibIsReal.lean ====
/-
  Extended reals that are real numbers.

  A float input that is finite denotes, at the ideal instance, an extended real that is neither infinity: a real
  number. Sums, differences, products and maxima of real numbers are real, and so is a quotient by a nonzero real;
  the laws of arithmetic that fail at the infinities (distributivity, cancellation) hold on such values.
-/
import Idealize.ShloMosaic.PureOps.Ideal

noncomputable section

namespace Cert.Reals

open Idealize.ShloMosaic

/-- `x` is a real number: not an infinity. -/
def IsReal (x : EReal) : Prop := ∃ a : ℝ, x = (a : EReal)

theorem isReal_coe (a : ℝ) : IsReal (a : EReal) := ⟨a, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (by exact_mod_cast h)⟩
  · exact ⟨a, max_eq_left (by exact_mod_cast h)⟩

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real number by a nonzero real number is a real number. -/
theorem IsReal.div_coe {x : EReal} (hx : IsReal x) {y : ℝ} (hy : y ≠ 0) : IsReal (Ideal.div x (y : EReal)) := by
  rw [Ideal.div_coe hy]; exact hx.mul (isReal_coe _)

/-- The quotient of a real number by an extended real that is at least one is a real number: the divisor is a
    nonzero real, or `+∞`, whose inverse is zero. -/
theorem IsReal.div_of_one_le {x y : EReal} (hx : IsReal x) (hy : 1 ≤ y) : IsReal (Ideal.div x y) := by
  obtain ⟨a, rfl⟩ := hx
  induction y using EReal.rec with
  | bot => exact absurd (le_bot_iff.mp hy) (by rw [← EReal.coe_one]; exact EReal.coe_ne_bot 1)
  | top => exact ⟨0, by simp [Ideal.div]⟩
  | coe b =>
    have hb : (1 : ℝ) ≤ b := by exact_mod_cast hy
    exact (isReal_coe a).div_coe (by linarith : b ≠ 0)

end Cert.Reals

end
-- ==== Proof.LibIdxSums.lean ====
/-
  Sums over the index set of an array of rank three or four, as nested sums over its coordinates, and the sum over the
  indices with one coordinate fixed. Only commutativity and associativity of `+` are used, so every statement holds in
  any commutative additive monoid — on the extended reals in particular, with no finiteness.
-/
import Idealize.ShloMosaic.Lib.ValueIdx
import Mathlib.Algebra.BigOperators.Fin

open Idealize.ShloMosaic Idealize.ShloMosaic.ValueIdx

namespace Cert.Lib.IdxSums

/-- An index of a rank-3 array is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An index of a rank-4 array is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over the indices of a rank-4 array is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The sum over the indices of a rank-4 array that satisfy a predicate saying "the SECOND coordinate is `k`": the triple
    sum over the other three coordinates. -/
theorem sum_filter_axis1 {M : Type*} [AddCommMonoid M] {n0 n1 n2 n3 : Nat} (f : (⟨4, ![n0, n1, n2, n3]⟩ : Shape).Idx → M)
    (k : Fin n1) (p : (⟨4, ![n0, n1, n2, n3]⟩ : Shape).Idx → Prop) [DecidablePred p] (hp : ∀ i, p i ↔ (i 1).val = k.val) :
    ∑ i ∈ Finset.univ.filter p, f i = ∑ a : Fin n0, ∑ c : Fin n2, ∑ d : Fin n3, f (ix4 a k c d) := by
  rw [Finset.sum_filter, sum_idx4]
  refine Finset.sum_congr rfl fun a _ => ?_
  rw [Finset.sum_eq_single k]
  · refine Finset.sum_congr rfl fun c _ => Finset.sum_congr rfl fun d _ => ?_
    exact if_pos ((hp _).mpr rfl)
  · intro b _ hb
    refine Finset.sum_eq_zero fun c _ => Finset.sum_eq_zero fun d _ => ?_
    exact if_neg fun h => hb (Fin.ext ((hp _).mp h))
  · intro h; exact absurd (Finset.mem_univ _) h

end Cert.Lib.IdxSums
-- ==== Proof.LibGroupReads.lean ====
/- Layouts that cut the columns of a matrix into consecutive groups, read at coordinates, for any extents: an [a, n]
   array with n = b * c cast to [a, b, c] reads, at (p, g, e), the matrix at (p, g * c + e); an [a, b] array given a
   trailing unit axis reads its entry (p, g) at (p, g, z); an [a, b, 1] array broadcast along its last axis to
   [a, b, c] reads its entry (p, g, 0) at every (p, g, e); and, on the extended reals, a sum over the two trailing axes
   of an [A, B, C] array from the neutral accumulator is, at row r, the double sum over (g, e) of the array at
   (r, g, e).  Nothing here depends on a particular program. -/
import Idealize.ShloMosaic.PureOps.Ideal
import Idealize.ShloMosaic.PureOps.Ideal.Laws
import Idealize.ShloMosaic.Lib.ValueIdx
import Idealize.ShloMosaic.Lib.Pipeline.Value
import proofs.«128722_j77833397338356_2_alg».proof.Proof.LibIdxSums

noncomputable section

open scoped BigOperators

open Idealize.ShloMosaic Idealize.ShloMosaic.ValueIdx

namespace Cert.Lib.GroupReads

variable {α : Type}

/-- An [a, n] array with n = b * c cast to [a, b, c] reads, at (p, g, e), the matrix at column g * c + e of row p. -/
theorem shapeCast_split_apply {a b c n : ℕ} (x : (⟨2, ![a, n]⟩ : Shape).Idx → α)
    (h : (⟨2, ![a, n]⟩ : Shape).ShapeCasts ⟨3, ![a, b, c]⟩) (hn : b * c = n) (p : Fin a) (g : Fin b) (e : Fin c) (q : Fin n)
    (hq : q.val = g.val * c + e.val) : shapeCast ⟨3, ![a, b, c]⟩ x h (ix3 p g e) = x (ix2 p q) :=
  shapeCast_apply x h _ _ (by
    rw [Shape.rowMajor_val_two, Shape.rowMajor_val_three]
    show p.val * n + q.val = (p.val * b + g.val) * c + e.val
    rw [hq, ← hn, Nat.add_mul, Nat.mul_assoc, Nat.add_assoc])

/-- An [a, b] array given a trailing unit axis reads, at (p, g, z), its entry (p, g). -/
theorem shapeCast_unsq_apply {a b : ℕ} (x : (⟨2, ![a, b]⟩ : Shape).Idx → α)
    (h : (⟨2, ![a, b]⟩ : Shape).ShapeCasts ⟨3, ![a, b, 1]⟩) (p : Fin a) (g : Fin b) (z : Fin 1) :
    shapeCast ⟨3, ![a, b, 1]⟩ x h (ix3 p g z) = x (ix2 p g) :=
  shapeCast_apply x h _ _ (by
    have hz : z.val = 0 := by omega
    rw [Shape.rowMajor_val_two, Shape.rowMajor_val_three]
    show p.val * b + g.val = (p.val * b + g.val) * 1 + z.val
    rw [hz, Nat.mul_one, Nat.add_zero])

/-- An [a, b, 1] array broadcast along its last axis to [a, b, c] reads, at (p, g, e), its entry (p, g, 0). -/
theorem broadcastTo_last_apply {a b c : ℕ} (v : (⟨3, ![a, b, 1]⟩ : Shape).Idx → α)
    (h : (⟨3, ![a, b, 1]⟩ : Shape).Broadcasts ⟨3, ![a, b, c]⟩) (p : Fin a) (g : Fin b) (e : Fin c) :
    broadcastTo ⟨3, ![a, b, c]⟩ v h (ix3 p g e) = v (ix3 p g (0 : Fin 1)) := by
  refine broadcastTo_apply v h (ix3 p g e) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

/-- A sum over the two trailing axes of an [A, B, C] array from the neutral accumulator, read on the extended reals at
    row r: the double sum over (g, e) of the array at (r, g, e). -/
theorem sumTrailing_apply {A B C : ℕ} (src : FVec Ideal ⟨3, ![A, B, C]⟩ .f32) (acc : BitVec 32)
    (h : (⟨3, ![A, B, C]⟩ : Shape).Reduces [1, 2] ⟨1, ![A]⟩) (hφ : FKind.Formats .f32) (hacc : acc = FKind.add.neutral .f32 hφ)
    (r : Fin A) :
    multiReduction .add [1, 2] ⟨1, ![A]⟩ src acc h hφ hacc (ix1 r) = ∑ g : Fin B, ∑ e : Fin C, src (ix3 r g e) := by
  show Ideal.reduceAdd h src (ix1 r) = _
  unfold Ideal.reduceAdd
  rw [Finset.sum_filter, Cert.Lib.IdxSums.sum_idx3, Finset.sum_eq_single r]
  · refine Finset.sum_congr rfl fun g _ => Finset.sum_congr rfl fun e _ => if_pos ?_
    funext b
    match b with
    | ⟨0, _⟩ => rfl
  · intro a _ ha
    refine Finset.sum_eq_zero fun g _ => Finset.sum_eq_zero fun e _ => if_neg fun hh => ha ?_
    have h0 := congrFun hh ⟨0, Nat.one_pos⟩
    exact Fin.ext (congrArg Fin.val h0)
  · intro hh
    exact absurd (Finset.mem_univ _) hh

end Cert.Lib.GroupReads

end
-- ==== Proof.LibHostReads.lean ====
/- Host operations read at an index, on the extended reals, for any shape: the host's quotient and square root are
   pointwise, a host sum from a rank-zero initial value is the exact sum from that value's one element, and a rank-zero
   constant broadcast to any shape reads the constant everywhere.  Each holds by unfolding the definition; stating them
   once over variable shapes lets a proof rewrite with them instead of unfolding full-size arrays.
   Nothing here depends on a particular program. -/
import Idealize.ShloMosaic.PureOps.Ideal
import Idealize.ShloMosaic.Lib.ValueIdx

noncomputable section

open Idealize.ShloMosaic

namespace Cert.Lib.HostReads

variable {s : Shape} {φ : FTy}

/-- The host's quotient reads index by index. -/
theorem hostDivf_apply (a b : FVec Ideal s φ) (i : s.Idx) : Host.divf a b i = Ideal.div (a i) (b i) := rfl

/-- The host's square root reads index by index. -/
theorem hostSqrt_apply (a : FVec Ideal s φ) (i : s.Idx) : Host.sqrt a i = Ideal.sqrt (a i) := rfl

/-- A product reads index by index (as a function). -/
theorem mulf_eq (a b : FVec Ideal s φ) : mulf a b = fun i => a i * b i := rfl

/-- The host's float sum from a rank-zero initial value is the exact sum from that value's one element. -/
theorem hostReduceAdd_apply {axes : List (Fin s.rank)} {t u : Shape} (x : FVec Ideal s φ) (init : u.Idx → Ideal φ)
    (h : s.ReducesTo axes t) (hu : 0 < u.numel) (j : t.Idx) :
    Host.reduceAdd x init h hu j = Ideal.hostReduceAdd h x (init (Shape.Idx.first hu)) j := rfl

/-- A rank-zero constant broadcast to any shape reads the constant's value at every index. -/
theorem broadcast_constant_apply {t : Shape} (dims : Fin (⟨0, ![]⟩ : Shape).rank → Fin t.rank)
    (h : (⟨0, ![]⟩ : Shape).BroadcastsInDim t dims) (b : BitVec φ.bits) (j : t.Idx) :
    broadcastInDim t dims h (constant (F := Ideal) ⟨0, ![]⟩ φ b) j = Ideal.ofBits φ b := rfl

end Cert.Lib.HostReads

end
-- ==== Proof.LibChunkReads.lean ====
/- Reading a masked chunk sum at coordinates, on the extended reals, for any extents. A matrix R of shape [A, N] supplies
   one weight per (row, position); a chunk of C consecutive positions starting at o is cut out of it, given a trailing
   unit axis, broadcast along a last axis of length D and multiplied into an [A, C, D] array P; summing the product along
   the middle axis gives, at (p, d), the sum over the chunk's positions j of R(p, o + j) · P(p, j, d). With it: the sum
   along the middle axis of an [A, C, D] array; a load through a unit-stride rectangle that takes C consecutive positions
   from o on the middle axis of an [A, N, D] array; and the host's sum over the two trailing axes of an [A, B, C] array
   from the zero constant, at row r, as the double sum over (g, e). Nothing here depends on a particular program. -/
import Idealize.ShloMosaic.PureOps.Ideal
import Idealize.ShloMosaic.PureOps.Ideal.Laws
import Idealize.ShloMosaic.Lib.ValueIdx
import Idealize.ShloMosaic.Lib.Pipeline.Value
import proofs.«128722_j77833397338356_2_alg».proof.Proof.LibIdxSums
import proofs.«128722_j77833397338356_2_alg».proof.Proof.LibGroupReads
import proofs.«128722_j77833397338356_2_alg».proof.Proof.LibHostReads

noncomputable section

open scoped BigOperators

open Idealize.ShloMosaic Idealize.ShloMosaic.ValueIdx

namespace Cert.Lib.ChunkReads

/-- Position j of a chunk of C positions that starts at o, as a position among N. -/
def shift {C N : ℕ} (o : ℕ) (h : o + C ≤ N) (j : Fin C) : Fin N := ⟨o + j.val, by have := j.isLt; omega⟩

@[simp] theorem shift_val {C N : ℕ} (o : ℕ) (h : o + C ≤ N) (j : Fin C) : (shift o h j).val = o + j.val := rfl

/-- A sum along the middle axis of an [A, C, D] array from the neutral accumulator, read at (p, d): the sum over the
    middle coordinate j of the array at (p, j, d). -/
theorem midSum_apply {A C D : ℕ} (src : FVec Ideal ⟨3, ![A, C, D]⟩ .f32) (acc : BitVec 32)
    (h : (⟨3, ![A, C, D]⟩ : Shape).Reduces [1] ⟨2, ![A, D]⟩) (hφ : FKind.Formats .f32) (hacc : acc = FKind.add.neutral .f32 hφ)
    (p : Fin A) (d : Fin D) :
    multiReduction .add [1] ⟨2, ![A, D]⟩ src acc h hφ hacc (ix2 p d) = ∑ j : Fin C, src (ix3 p j d) :=
  (Ideal.multiReduction_add_single src acc h hφ hacc (ix2 p d)).trans
    (Finset.sum_congr rfl fun k _ => congrArg src (funext fun a => Fin.ext (by
      match a with
      | ⟨0, _⟩ => rfl
      | ⟨1, _⟩ => rfl
      | ⟨2, _⟩ => rfl)))

/-- The masked chunk sum at (p, d): the sum over the chunk's positions j of the weight R(p, o + j) times P(p, j, d). -/
theorem maskedChunk_apply {A N C D : ℕ} (o : ℕ) (R : FVec Ideal ⟨2, ![A, N]⟩ .f32) (P : FVec Ideal ⟨3, ![A, C, D]⟩ .f32)
    (hs : (⟨2, ![A, N]⟩ : Shape).Slices ![0, o] ⟨2, ![A, C]⟩)
    (hc : (⟨2, ![A, C]⟩ : Shape).ShapeCasts ⟨3, ![A, C, 1]⟩)
    (hb : (⟨3, ![A, C, 1]⟩ : Shape).Broadcasts ⟨3, ![A, C, D]⟩)
    (acc : BitVec 32) (h : (⟨3, ![A, C, D]⟩ : Shape).Reduces [1] ⟨2, ![A, D]⟩) (hφ : FKind.Formats .f32)
    (hacc : acc = FKind.add.neutral .f32 hφ) (hoc : o + C ≤ N) (p : Fin A) (d : Fin D) :
    multiReduction .add [1] ⟨2, ![A, D]⟩
        (mulf (broadcastTo ⟨3, ![A, C, D]⟩ (shapeCast ⟨3, ![A, C, 1]⟩ (extractStridedSlice ⟨2, ![A, C]⟩ ![0, o] R hs) hc) hb) P)
        acc h hφ hacc (ix2 p d)
      = ∑ j : Fin C, R (ix2 p (shift o hoc j)) * P (ix3 p j d) := by
  rw [midSum_apply]
  refine Finset.sum_congr rfl fun j _ => ?_
  rw [mulf_apply, Cert.Lib.GroupReads.broadcastTo_last_apply, Cert.Lib.GroupReads.shapeCast_unsq_apply]
  refine congrArg (· * P (ix3 p j d)) ?_
  refine extractStridedSlice_apply _ R hs (ix2 p j) (ix2 p (shift o hoc j)) fun a => ?_
  match a with
  | ⟨0, _⟩ => exact (Nat.zero_add _).symm
  | ⟨1, _⟩ => rfl

/-- A load through the unit-stride rectangle that takes all rows, the C positions from o and all of the last axis of an
    [A, N, D] array, read at (p, j, d): the array at (p, o + j, d). -/
theorem ld_chunk_apply {α : Type} {A N C D : ℕ} (o : ℕ) (X : (⟨3, ![A, N, D]⟩ : Shape).Idx → α)
    (inb : ∀ a, (![0, o, 0] : Fin 3 → ℕ) a + (⟨3, ![A, C, D]⟩ : Shape).size a ≤ (⟨3, ![A, N, D]⟩ : Shape).size a)
    (hoc : o + C ≤ N) (p : Fin A) (j : Fin C) (d : Fin D) :
    (fun x => X ((Rect.unit (s := ⟨3, ![A, N, D]⟩) ![0, o, 0] (⟨3, ![A, C, D]⟩ : Shape).size inb).idx x)) (ix3 p j d)
      = X (ix3 p (shift o hoc j) d) := by
  refine congrArg X (funext fun a => Fin.ext ?_)
  match a with
  | ⟨0, _⟩ => show 0 + 1 * p.val = p.val; omega
  | ⟨1, _⟩ => show o + 1 * j.val = o + j.val; omega
  | ⟨2, _⟩ => show 0 + 1 * d.val = d.val; omega

/-- The host's sum over the two trailing axes of an [A, B, C] array from the zero constant, at row r: the double sum
    over (g, e) of the array at (r, g, e). -/
theorem hostSumTrailing_apply {A B C : ℕ} (x : FVec Ideal ⟨3, ![A, B, C]⟩ .f32)
    (h' : (⟨3, ![A, B, C]⟩ : Shape).ReducesTo [1, 2] ⟨1, ![A]⟩) (hu : 0 < (⟨0, ![]⟩ : Shape).numel) (r : Fin A) :
    Host.reduceAdd x (constant (F := Ideal) ⟨0, ![]⟩ .f32 0x00000000#32) h' hu (ix1 r)
      = ∑ g : Fin B, ∑ e : Fin C, x (ix3 r g e) := by
  rw [Cert.Lib.HostReads.hostReduceAdd_apply]
  unfold Ideal.hostReduceAdd
  show Ideal.ofBits .f32 0x00000000#32 + _ = _
  rw [Ideal.ofBits_zero_f32, zero_add, Finset.sum_filter, Cert.Lib.IdxSums.sum_idx3, Finset.sum_eq_single r]
  · refine Finset.sum_congr rfl fun g _ => Finset.sum_congr rfl fun e _ => if_pos ?_
    funext b
    match b with
    | ⟨0, _⟩ => rfl
  · intro a _ ha
    refine Finset.sum_eq_zero fun g _ => Finset.sum_eq_zero fun e _ => if_neg fun hh => ha ?_
    have h0 := congrFun hh ⟨0, Nat.one_pos⟩
    exact Fin.ext (congrArg Fin.val h0)
  · intro hh
    exact absurd (Finset.mem_univ _) hh

end Cert.Lib.ChunkReads

end
-- ==== Proof.PairSum.lean ====
/- The mathematics of the claim. For each row b there are two 0/1 weight vectors r, c over 50 positions (an integer word
   clipped to [0, 1] and read as a float) and two 50 × 128 matrices x, y. One side forms the weighted row sums
   u_d = Σ_n r_n · x_{n,d} and v_d = Σ_m c_m · y_{m,d} and contracts them, Σ_d u_d · v_d; the other forms all pairwise
   inner products P_{n,m} = Σ_d x_{n,d} · y_{m,d}, weights each by r_n and then c_m, and sums over the pairs. When every
   entry is a real number the two agree, by distributivity and a change of the order of summation; on the extended reals
   distributivity fails at the infinities, so the agreement is stated for real entries only. Also here: the sum over 50
   positions taken as six chunks of 8 and one of 2, added up from zero in order. -/
import Idealize.ShloMosaic.PureOps.Ideal
import Mathlib.Algebra.BigOperators.Fin
import proofs.«128722_j77833397338356_2_alg».proof.Proof.LibIsReal
import proofs.«128722_j77833397338356_2_alg».proof.Proof.LibChunkReads

noncomputable section

open scoped BigOperators

open Idealize.ShloMosaic Cert.Reals Cert.Lib.ChunkReads

namespace Cert.PairSum

/-- The weight an integer word stands for: the word clipped to [0, 1], as a float. -/
def mask (w : BitVec 32) : EReal := FloatOps.sitofp (F := Ideal) .f32 (IntOp.minsi 1#32 (IntOp.maxsi 0#32 w))

/-- A weight is a real number. -/
theorem isReal_mask (w : BitVec 32) : IsReal (mask w) := ⟨_, rfl⟩

variable {ι κ : Type*} [Fintype ι] [Fintype κ]

/-- The weighted row sums contracted over the last coordinate. -/
def contracted (r c : ι → EReal) (x y : ι → κ → EReal) : EReal :=
  ∑ d, (∑ n, r n * x n d) * (∑ m, c m * y m d)

/-- All pairwise inner products, weighted and summed over the pairs. -/
def pairwise (r c : ι → EReal) (x y : ι → κ → EReal) : EReal :=
  ∑ n, ∑ m, ((∑ d, x n d * y m d) * r n) * c m

/-- The coercion of a finite sum of reals is the sum of the coercions. -/
theorem coe_sum {α : Type*} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: Σ_{n,m} (Σ_d x_{n,d} y_{m,d}) r_n c_m = Σ_d (Σ_n r_n x_{n,d}) (Σ_m c_m y_{m,d}). -/
theorem real_law (r c : ι → ℝ) (x y : ι → κ → ℝ) :
    ∑ n, ∑ m, ((∑ d, x n d * y m d) * r n) * c m = ∑ d, (∑ n, r n * x n d) * (∑ m, c m * y m d) :=
  calc ∑ n, ∑ m, ((∑ d, x n d * y m d) * r n) * c m
      = ∑ n, ∑ m, ∑ d, (r n * x n d) * (c m * y m d) :=
        Finset.sum_congr rfl fun n _ => Finset.sum_congr rfl fun m _ => by
          rw [Finset.sum_mul, Finset.sum_mul]; exact Finset.sum_congr rfl fun d _ => by ring
    _ = ∑ n, ∑ d, ∑ m, (r n * x n d) * (c m * y m d) := Finset.sum_congr rfl fun n _ => Finset.sum_comm
    _ = ∑ d, ∑ n, ∑ m, (r n * x n d) * (c m * y m d) := Finset.sum_comm
    _ = ∑ d, (∑ n, r n * x n d) * (∑ m, c m * y m d) :=
        Finset.sum_congr rfl fun d _ => (Finset.sum_mul_sum _ _ _ _).symm

/-- On real entries the two arrangements agree. -/
theorem pairwise_eq_contracted (r c : ι → EReal) (x y : ι → κ → EReal) (hr : ∀ n, IsReal (r n)) (hc : ∀ n, IsReal (c n))
    (hx : ∀ n d, IsReal (x n d)) (hy : ∀ n d, IsReal (y n d)) : pairwise r c x y = contracted r c x y := by
  choose r' hr' using hr
  choose c' hc' using hc
  choose x' hx' using hx
  choose y' hy' using hy
  obtain rfl : r = fun n => ((r' n : ℝ) : EReal) := funext hr'
  obtain rfl : c = fun n => ((c' n : ℝ) : EReal) := funext hc'
  obtain rfl : x = fun n d => ((x' n d : ℝ) : EReal) := funext fun n => funext fun d => hx' n d
  obtain rfl : y = fun n d => ((y' n d : ℝ) : EReal) := funext fun n => funext fun d => hy' n d
  unfold pairwise contracted
  simp only [← EReal.coe_mul, ← coe_sum]
  rw [EReal.coe_eq_coe_iff]
  exact real_law r' c' x' y'

/-- Fifty positions taken as six chunks of eight and one of two, added up from zero in order, are all fifty. -/
theorem chunks50 {M : Type*} [AddCommMonoid M] (g : Fin 50 → M) :
    0 + ∑ j : Fin 8, g (shift 0 (by decide) j) + ∑ j : Fin 8, g (shift 8 (by decide) j)
        + ∑ j : Fin 8, g (shift 16 (by decide) j) + ∑ j : Fin 8, g (shift 24 (by decide) j)
        + ∑ j : Fin 8, g (shift 32 (by decide) j) + ∑ j : Fin 8, g (shift 40 (by decide) j)
        + ∑ j : Fin 2, g (shift 48 (by decide) j) = ∑ n, g n := by
  let f : ℕ → M := fun n => if h : n < 50 then g ⟨n, h⟩ else 0
  have hg : ∀ n : Fin 50, g n = f n.val := fun n => by
    show g n = if h : n.val < 50 then g ⟨n.val, h⟩ else 0
    rw [dif_pos n.isLt]
  have hs : ∀ (C o : ℕ) (h : o + C ≤ 50), ∑ j : Fin C, g (shift o h j) = ∑ j ∈ Finset.range C, f (o + j) := by
    intro C o h
    rw [← Fin.sum_univ_eq_sum_range (fun j => f (o + j)) C]
    exact Finset.sum_congr rfl fun j _ => hg _
  have ht : ∑ n, g n = ∑ n ∈ Finset.range 50, f n := by
    rw [← Fin.sum_univ_eq_sum_range f 50]
    exact Finset.sum_congr rfl fun n _ => hg n
  have e1 : ∑ n ∈ Finset.range 16, f n = ∑ n ∈ Finset.range 8, f n + ∑ n ∈ Finset.range 8, f (8 + n) := Finset.sum_range_add f 8 8
  have e2 : ∑ n ∈ Finset.range 24, f n = ∑ n ∈ Finset.range 16, f n + ∑ n ∈ Finset.range 8, f (16 + n) := Finset.sum_range_add f 16 8
  have e3 : ∑ n ∈ Finset.range 32, f n = ∑ n ∈ Finset.range 24, f n + ∑ n ∈ Finset.range 8, f (24 + n) := Finset.sum_range_add f 24 8
  have e4 : ∑ n ∈ Finset.range 40, f n = ∑ n ∈ Finset.range 32, f n + ∑ n ∈ Finset.range 8, f (32 + n) := Finset.sum_range_add f 32 8
  have e5 : ∑ n ∈ Finset.range 48, f n = ∑ n ∈ Finset.range 40, f n + ∑ n ∈ Finset.range 8, f (40 + n) := Finset.sum_range_add f 40 8
  have e6 : ∑ n ∈ Finset.range 50, f n = ∑ n ∈ Finset.range 48, f n + ∑ n ∈ Finset.range 2, f (48 + n) := Finset.sum_range_add f 48 2
  rw [ht, e6, e5, e4, e3, e2, e1, hs, hs, hs, hs, hs, hs, hs, zero_add]
  simp only [Nat.zero_add]

/-! ## The result array as a function of the four argument arrays

Row b of the [16384, 1] result depends on row b of each argument: the weights are the clipped words of row b of the two
integer arrays, the matrices are row b of the two float arrays. -/

open Idealize.ShloMosaic.ValueIdx in
/-- The contracted arrangement, row by row. -/
def rowsContracted (a0 a1 : (⟨2, ![16384, 50]⟩ : Shape).Idx → BitVec 32) (a2 a3 : (⟨3, ![16384, 50, 128]⟩ : Shape).Idx → EReal) :
    (⟨2, ![16384, 1]⟩ : Shape).Idx → EReal :=
  fun i => contracted (fun n : Fin 50 => mask (a0 (ix2 (i 0) n))) (fun n : Fin 50 => mask (a1 (ix2 (i 0) n)))
    (fun (n : Fin 50) (d : Fin 128) => a2 (ix3 (i 0) n d)) (fun (n : Fin 50) (d : Fin 128) => a3 (ix3 (i 0) n d))

open Idealize.ShloMosaic.ValueIdx in
/-- The pairwise arrangement, row by row. -/
def rowsPairwise (a0 a1 : (⟨2, ![16384, 50]⟩ : Shape).Idx → BitVec 32) (a2 a3 : (⟨3, ![16384, 50, 128]⟩ : Shape).Idx → EReal) :
    (⟨2, ![16384, 1]⟩ : Shape).Idx → EReal :=
  fun i => pairwise (fun n : Fin 50 => mask (a0 (ix2 (i 0) n))) (fun n : Fin 50 => mask (a1 (ix2 (i 0) n)))
    (fun (n : Fin 50) (d : Fin 128) => a2 (ix3 (i 0) n d)) (fun (n : Fin 50) (d : Fin 128) => a3 (ix3 (i 0) n d))

/-- When every entry of the two float arrays is a real number, the two arrangements give the same result array. -/
theorem rowsPairwise_eq_rowsContracted (a0 a1 : (⟨2, ![16384, 50]⟩ : Shape).Idx → BitVec 32)
    (a2 a3 : (⟨3, ![16384, 50, 128]⟩ : Shape).Idx → EReal) (h2 : ∀ j, IsReal (a2 j)) (h3 : ∀ j, IsReal (a3 j)) :
    rowsPairwise a0 a1 a2 a3 = rowsContracted a0 a1 a2 a3 :=
  funext fun i => pairwise_eq_contracted _ _ _ _ (fun _ => isReal_mask _) (fun _ => isReal_mask _) (fun _ _ => h2 _) (fun _ _ => h3 _)

end Cert.PairSum

end
-- ==== Proof.LibAbsFinite.lean ====
/- A finiteness test read on the extended reals: the f32 word 0x7F800000 denotes +∞, and an extended real whose absolute
   value (max y (-y)) compares strictly below that word is a real number — it is neither infinity. This is the element
   fact behind a precondition of the form |y| < +∞ at every entry. Nothing here depends on a particular program. -/
import Idealize.ShloMosaic.PureOps.Ideal
import Idealize.ShloMosaic.PureOps.Ideal.Laws
import proofs.«128722_j77833397338356_2_alg».proof.Proof.LibIsReal

noncomputable section

namespace Cert.Lib.AbsFinite

open Idealize.ShloMosaic Cert.Reals

/-- The float word 0x7F800000 denotes +∞. -/
theorem inf_word : Ideal.ofBits .f32 0x7F800000#32 = ⊤ := by simp [Ideal.ofBits, Ideal.ieee]

/-- An extended real whose absolute value compares below the word of +∞ is a real number. -/
theorem isReal_of_abs_lt {y : EReal} (e : Ideal.cmp .olt (max y (-y)) (Ideal.ofBits .f32 0x7F800000#32) = 1#1) : IsReal y := by
  rw [inf_word] at e
  induction y using EReal.rec with
  | bot => simp [Ideal.cmp] at e
  | top => simp [Ideal.cmp] at e
  | coe a => exact ⟨a, rfl⟩

end Cert.Lib.AbsFinite

end
-- ==== Proof.FiniteEntries.lean ====
/- What the precondition says. It is the conjunction, over the two float arrays, of "every entry's absolute value compares
   strictly below +∞"; an entry of an extended-real array with that property is neither infinity, that is, a real number.
   So under the precondition every entry of both float arrays is a real number. -/
import proofs.«128722_j77833397338356_2_alg».proof.Pre_finite_inputs
import Idealize.ShloMosaic.PureOps.Ideal
import Idealize.ShloMosaic.Lib.ReduceAll
import Idealize.ShloMosaic.Lib.ValueIdx
import Idealize.ShloMosaic.Lib.Affine
import proofs.«128722_j77833397338356_2_alg».proof.Proof.LibIsReal
import proofs.«128722_j77833397338356_2_alg».proof.Proof.LibAbsFinite

noncomputable section

namespace Cert.FiniteEntries

open Cert.Pre_finite_inputs Idealize.ShloMosaic Cert.Reals

instance : Subsingleton S_.Idx := ⟨fun a b => funext fun d => d.elim0⟩

/-- If the precondition's function of the four arrays is all ones, every entry of the two float arrays is a real. -/
theorem isReal_of_pre [Facts] (a0 a1 : IVec S16384x50 32) (a2 a3 : FVec Ideal S16384x50x128 .f32)
    (h : fn (F := Ideal) a0 a1 a2 a3 = fun _ => 1#1) : (∀ j, IsReal (a2 j)) ∧ (∀ j, IsReal (a3 j)) := by
  have h0 := congrFun h ValueIdx.ix0
  dsimp only [fn] at h0
  obtain ⟨e2, e3⟩ := IntOp.andi_eq_one.mp h0
  exact ⟨fun j => Cert.Lib.AbsFinite.isReal_of_abs_lt (Host.reduce_andi_all _ _ _ _ _ e2 j),
    fun j => Cert.Lib.AbsFinite.isReal_of_abs_lt (Host.reduce_andi_all _ _ _ _ _ e3 j)⟩

end Cert.FiniteEntries

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.KernelBody.lean ====
/- The kernel body's value at one row of a block. The body clips the two integer blocks to 0/1 weights, and for each of
   the two float blocks [256, 50, 128] accumulates, from zero, seven masked chunk sums (positions 0-7, 8-15, ..., 40-47,
   48-49): at (p, d) the accumulator is the sum over all 50 positions n of weight(p, n) · block(p, n, d). The two
   accumulators are multiplied entry by entry and summed along d, so row p of the [256, 1] output block holds
   Σ_d (Σ_n r_n · x_{n,d}) · (Σ_m c_m · y_{m,d}) — the contracted arrangement of the row's weights and matrices. -/
import proofs.«128722_j77833397338356_2_alg».proof.Proof.Gen.KernelIdeal.Frame
import proofs.«128722_j77833397338356_2_alg».proof.Proof.Gen.KernelIdeal.Value
import Idealize.ShloMosaic.Lib.Pipeline.Value
import Idealize.ShloMosaic.Lib.ValueIdx
import Idealize.ShloMosaic.PureOps.Ideal.Laws
import proofs.«128722_j77833397338356_2_alg».proof.Proof.LibChunkReads
import proofs.«128722_j77833397338356_2_alg».proof.Proof.LibPlainMatmul
import proofs.«128722_j77833397338356_2_alg».proof.Proof.PairSum

noncomputable section

open scoped BigOperators

namespace Cert.KernelIdeal.Body

open Cert.KernelIdeal Cert.KernelIdeal.Gen Idealize.ShloMosaic Idealize.ShloMosaic.ValueIdx Idealize.SL.Sem
open Cert.Lib.ChunkReads Cert.PairSum

/-- One accumulator of the body: from the zero splat, the seven masked chunk sums of a weight block R against the seven
    chunk loads Q1 … Q7 of a float block, added in order. -/
def accum {F : FTy → Type} [FloatOps F] (R : Vec F S256x50 .i32) (Q1 : Vec F S256x8x128 .f32) (Q2 : Vec F S256x8x128 .f32) (Q3 : Vec F S256x8x128 .f32) (Q4 : Vec F S256x8x128 .f32) (Q5 : Vec F S256x8x128 .f32) (Q6 : Vec F S256x8x128 .f32) (Q7 : Vec F S256x2x128 .f32) : FVec F S256x128 .f32 :=
  (addf (addf (addf (addf (addf (addf (addf (broadcast S256x128 (Scalar.ofBits .f32 0x00000000#32)) (multiReduction .add [1] S256x128 (mulf (broadcastTo S256x8x128 (shapeCast S256x8x1 (extractStridedSlice S256x8 ![0, 0] (sitofp .f32 (minsi (broadcast S256x50 1#32) (maxsi (broadcast S256x50 0#32) R))) slices_S256x50_o0_0_S256x8) shapeCasts_S256x8_S256x8x1) broadcasts_S256x8x1_S256x8x128) Q1) 0x00000000#32 reduces_S256x8x128_S256x128 (.inl rfl) rfl)) (multiReduction .add [1] S256x128 (mulf (broadcastTo S256x8x128 (shapeCast S256x8x1 (extractStridedSlice S256x8 ![0, 8] (sitofp .f32 (minsi (broadcast S256x50 1#32) (maxsi (broadcast S256x50 0#32) R))) slices_S256x50_o0_8_S256x8) shapeCasts_S256x8_S256x8x1) broadcasts_S256x8x1_S256x8x128) Q2) 0x00000000#32 reduces_S256x8x128_S256x128 (.inl rfl) rfl)) (multiReduction .add [1] S256x128 (mulf (broadcastTo S256x8x128 (shapeCast S256x8x1 (extractStridedSlice S256x8 ![0, 16] (sitofp .f32 (minsi (broadcast S256x50 1#32) (maxsi (broadcast S256x50 0#32) R))) slices_S256x50_o0_16_S256x8) shapeCasts_S256x8_S256x8x1) broadcasts_S256x8x1_S256x8x128) Q3) 0x00000000#32 reduces_S256x8x128_S256x128 (.inl rfl) rfl)) (multiReduction .add [1] S256x128 (mulf (broadcastTo S256x8x128 (shapeCast S256x8x1 (extractStridedSlice S256x8 ![0, 24] (sitofp .f32 (minsi (broadcast S256x50 1#32) (maxsi (broadcast S256x50 0#32) R))) slices_S256x50_o0_24_S256x8) shapeCasts_S256x8_S256x8x1) broadcasts_S256x8x1_S256x8x128) Q4) 0x00000000#32 reduces_S256x8x128_S256x128 (.inl rfl) rfl)) (multiReduction .add [1] S256x128 (mulf (broadcastTo S256x8x128 (shapeCast S256x8x1 (extractStridedSlice S256x8 ![0, 32] (sitofp .f32 (minsi (broadcast S256x50 1#32) (maxsi (broadcast S256x50 0#32) R))) slices_S256x50_o0_32_S256x8) shapeCasts_S256x8_S256x8x1) broadcasts_S256x8x1_S256x8x128) Q5) 0x00000000#32 reduces_S256x8x128_S256x128 (.inl rfl) rfl)) (multiReduction .add [1] S256x128 (mulf (broadcastTo S256x8x128 (shapeCast S256x8x1 (extractStridedSlice S256x8 ![0, 40] (sitofp .f32 (minsi (broadcast S256x50 1#32) (maxsi (broadcast S256x50 0#32) R))) slices_S256x50_o0_40_S256x8) shapeCasts_S256x8_S256x8x1) broadcasts_S256x8x1_S256x8x128) Q6) 0x00000000#32 reduces_S256x8x128_S256x128 (.inl rfl) rfl)) (multiReduction .add [1] S256x128 (mulf (broadcastTo S256x2x128 (shapeCast S256x2x1 (extractStridedSlice S256x2 ![0, 48] (sitofp .f32 (minsi (broadcast S256x50 1#32) (maxsi (broadcast S256x50 0#32) R))) slices_S256x50_o0_48_S256x2) shapeCasts_S256x2_S256x2x1) broadcasts_S256x2x1_S256x2x128) Q7) 0x00000000#32 reduces_S256x2x128_S256x128 (.inl rfl) rfl))

/-- The block the body's one store leaves is the lane sum of the product of the two accumulators. -/
theorem block_eq {F : FTy → Type} [FloatOps F] (P0 : Vec F S256x50 .i32) (P1 : Vec F S256x8x128 .f32) (P2 : Vec F S256x8x128 .f32) (P3 : Vec F S256x8x128 .f32) (P4 : Vec F S256x8x128 .f32) (P5 : Vec F S256x8x128 .f32) (P6 : Vec F S256x8x128 .f32) (P7 : Vec F S256x2x128 .f32) (P8 : Vec F S256x50 .i32) (P9 : Vec F S256x8x128 .f32) (P10 : Vec F S256x8x128 .f32) (P11 : Vec F S256x8x128 .f32) (P12 : Vec F S256x8x128 .f32) (P13 : Vec F S256x8x128 .f32) (P14 : Vec F S256x8x128 .f32) (P15 : Vec F S256x2x128 .f32) (y : S256x1.Idx) :
    Value.E4 P0 P1 P2 P3 P4 P5 P6 P7 P8 P9 P10 P11 P12 P13 P14 P15 y
      = multiReduction .add [1] S256 (mulf (accum P0 P1 P2 P3 P4 P5 P6 P7) (accum P8 P9 P10 P11 P12 P13 P14 P15)) 0x00000000#32 reduces_S256x128_S256 (.inl rfl) rfl (Value.ix4_0 y) := rfl

/-- Eight summands replaced one by one. -/
theorem add8 {a0 a1 a2 a3 a4 a5 a6 a7 b0 b1 b2 b3 b4 b5 b6 b7 : EReal} (h0 : a0 = b0) (h1 : a1 = b1) (h2 : a2 = b2)
    (h3 : a3 = b3) (h4 : a4 = b4) (h5 : a5 = b5) (h6 : a6 = b6) (h7 : a7 = b7) :
    a0 + a1 + a2 + a3 + a4 + a5 + a6 + a7 = b0 + b1 + b2 + b3 + b4 + b5 + b6 + b7 := by
  rw [h0, h1, h2, h3, h4, h5, h6, h7]

/-- An accumulator at (p, d), chunk by chunk. -/
theorem accum_chunks (R : Vec Ideal S256x50 .i32) (Q1 : Vec Ideal S256x8x128 .f32) (Q2 : Vec Ideal S256x8x128 .f32) (Q3 : Vec Ideal S256x8x128 .f32) (Q4 : Vec Ideal S256x8x128 .f32) (Q5 : Vec Ideal S256x8x128 .f32) (Q6 : Vec Ideal S256x8x128 .f32) (Q7 : Vec Ideal S256x2x128 .f32) (p : Fin 256) (d : Fin 128) :
    accum R Q1 Q2 Q3 Q4 Q5 Q6 Q7 (ix2 p d)
      = 0 + ∑ j : Fin 8, mask (R (ix2 p (shift 0 (by decide) j))) * Q1 (ix3 p j d)
          + ∑ j : Fin 8, mask (R (ix2 p (shift 8 (by decide) j))) * Q2 (ix3 p j d)
          + ∑ j : Fin 8, mask (R (ix2 p (shift 16 (by decide) j))) * Q3 (ix3 p j d)
          + ∑ j : Fin 8, mask (R (ix2 p (shift 24 (by decide) j))) * Q4 (ix3 p j d)
          + ∑ j : Fin 8, mask (R (ix2 p (shift 32 (by decide) j))) * Q5 (ix3 p j d)
          + ∑ j : Fin 8, mask (R (ix2 p (shift 40 (by decide) j))) * Q6 (ix3 p j d)
          + ∑ j : Fin 2, mask (R (ix2 p (shift 48 (by decide) j))) * Q7 (ix3 p j d) := by
  unfold accum
  simp only [addf_apply]
  refine add8 ?_ ?_ ?_ ?_ ?_ ?_ ?_ ?_
  · exact Ideal.ofBits_zero_f32
  · exact maskedChunk_apply 0 _ Q1 _ _ _ _ _ _ _ (by decide) p d
  · exact maskedChunk_apply 8 _ Q2 _ _ _ _ _ _ _ (by decide) p d
  · exact maskedChunk_apply 16 _ Q3 _ _ _ _ _ _ _ (by decide) p d
  · exact maskedChunk_apply 24 _ Q4 _ _ _ _ _ _ _ (by decide) p d
  · exact maskedChunk_apply 32 _ Q5 _ _ _ _ _ _ _ (by decide) p d
  · exact maskedChunk_apply 40 _ Q6 _ _ _ _ _ _ _ (by decide) p d
  · exact maskedChunk_apply 48 _ Q7 _ _ _ _ _ _ _ (by decide) p d

/-- The whole-block rectangle at zero offsets. -/
theorem hz2 : (![0, 0] : Fin 2 → Nat) = fun _ => 0 := funext fun a => by
  match a with
  | ⟨0, _⟩ => rfl
  | ⟨1, _⟩ => rfl

/-- An accumulator over the body's loads of a weight block xi and a float block xv, at (p, d): the weighted sum over all
    fifty positions, Σ_n weight(p, n) · xv(p, n, d). The seven loads are the chunks of xv's middle axis. -/
theorem accum_loads (xi : Vec Ideal S256x50 .i32) (xv : Vec Ideal S256x50x128 .f32) (p : Fin 256) (d : Fin 128) :
    accum (View.ld xi r0_0) (View.ld xv r0_1) (View.ld xv r0_2) (View.ld xv r0_3) (View.ld xv r0_4) (View.ld xv r0_5) (View.ld xv r0_6) (View.ld xv r0_7) (ix2 p d)
      = ∑ n : Fin 50, mask (xi (ix2 p n)) * xv (ix3 p n d) := by
  have hi : View.ld xi r0_0 = xi := View.ld_unit_zero (S := S256x50) hz2 _ xi
  refine (accum_chunks _ _ _ _ _ _ _ _ p d).trans ?_
  refine Eq.trans ?_ (chunks50 (fun n : Fin 50 => mask (xi (ix2 p n)) * xv (ix3 p n d)))
  rw [hi]
  refine add8 rfl ?_ ?_ ?_ ?_ ?_ ?_ ?_ <;> refine Finset.sum_congr rfl fun j _ => ?_
  · exact congrArg (mask (xi (ix2 p (shift 0 _ j))) * ·) (ld_chunk_apply 0 xv _ _ p j d)
  · exact congrArg (mask (xi (ix2 p (shift 8 _ j))) * ·) (ld_chunk_apply 8 xv _ _ p j d)
  · exact congrArg (mask (xi (ix2 p (shift 16 _ j))) * ·) (ld_chunk_apply 16 xv _ _ p j d)
  · exact congrArg (mask (xi (ix2 p (shift 24 _ j))) * ·) (ld_chunk_apply 24 xv _ _ p j d)
  · exact congrArg (mask (xi (ix2 p (shift 32 _ j))) * ·) (ld_chunk_apply 32 xv _ _ p j d)
  · exact congrArg (mask (xi (ix2 p (shift 40 _ j))) * ·) (ld_chunk_apply 40 xv _ _ p j d)
  · exact congrArg (mask (xi (ix2 p (shift 48 _ j))) * ·) (ld_chunk_apply 48 xv _ _ p j d)

/-- Row p of the block the body leaves, from the four input blocks: the contracted arrangement of the row's weights
    (the clipped words of row p of x0 and x1) and matrices (row p of x2 and x3). -/
theorem out_row (x0 x1 : Vec Ideal S256x50 .i32) (x2 x3 : Vec Ideal S256x50x128 .f32) (p : Fin 256) (q : Fin 1) :
    out0_4 x0 x1 x2 x3 (ix2 p q)
      = contracted (fun n : Fin 50 => mask (x0 (ix2 p n))) (fun n : Fin 50 => mask (x1 (ix2 p n)))
          (fun (n : Fin 50) (d : Fin 128) => x2 (ix3 p n d)) (fun (n : Fin 50) (d : Fin 128) => x3 (ix3 p n d)) := by
  have hix : Value.ix4_0 (ix2 p q) = ix1 p := funext fun a => by
    match a with
    | ⟨0, _⟩ => rfl
  unfold out0_4
  refine (Value.canon4_eq (View.ld x0 r0_0) (View.ld x2 r0_1) (View.ld x2 r0_2) (View.ld x2 r0_3) (View.ld x2 r0_4) (View.ld x2 r0_5) (View.ld x2 r0_6) (View.ld x2 r0_7) (View.ld x1 r0_0) (View.ld x3 r0_1) (View.ld x3 r0_2) (View.ld x3 r0_3) (View.ld x3 r0_4) (View.ld x3 r0_5) (View.ld x3 r0_6) (View.ld x3 r0_7) (ix2 p q)).trans ?_
  refine (block_eq (View.ld x0 r0_0) (View.ld x2 r0_1) (View.ld x2 r0_2) (View.ld x2 r0_3) (View.ld x2 r0_4) (View.ld x2 r0_5) (View.ld x2 r0_6) (View.ld x2 r0_7) (View.ld x1 r0_0) (View.ld x3 r0_1) (View.ld x3 r0_2) (View.ld x3 r0_3) (View.ld x3 r0_4) (View.ld x3 r0_5) (View.ld x3 r0_6) (View.ld x3 r0_7) (ix2 p q)).trans ?_
  rw [hix]
  refine (Cert.Lib.PlainMatmul.rowSum_apply _ _ _ _ _ p).trans ?_
  exact Finset.sum_congr rfl fun d _ => congrArg₂ (· * ·) (accum_loads x0 x2 p d) (accum_loads x1 x3 p d)

end Cert.KernelIdeal.Body

end
-- ==== Proof.KernelRows.lean ====
/- From blocks to the array. The grid has 64 points; at point t each of the five windows takes block t along the first
   axis (256 rows) and the whole of the other axes, so row p of a block at point t is row 256·t + p of its array. What
   point t writes back is therefore rows 256·t … 256·t + 255 of the contracted arrangement of the four argument arrays,
   the 64 blocks cover all 16384 rows, and after the run the result array holds that arrangement. -/
import proofs.«128722_j77833397338356_2_alg».proof.Proof.Gen.KernelIdeal.Frame
import proofs.«128722_j77833397338356_2_alg».proof.Proof.Gen.KernelIdeal.Value
import Idealize.ShloMosaic.Lib.Pipeline.Value
import Idealize.ShloMosaic.Lib.ValueIdx
import proofs.«128722_j77833397338356_2_alg».proof.Proof.PairSum
import proofs.«128722_j77833397338356_2_alg».proof.Proof.KernelBody

noncomputable section

open scoped BigOperators

namespace Cert.KernelIdeal.Rows

open Cert.KernelIdeal Cert.KernelIdeal.Gen Idealize.ShloMosaic Idealize.ShloMosaic.TcCoe Idealize.ShloMosaic.ValueIdx Idealize.SL.Sem
open Idealize.ShloMosaic.Pipeline (Dat)
open Cert.PairSum

variable (m : (ℓ : Loc nD τ sig) → Buf (Elt Ideal) ℓ) (ρ : Dev nD → PrngReg)

/-- The printed index maps, decided over the 64 grid points: every window's block index is (t, 0, …). -/
theorem index_facts : ∀ t : Fin cfg0.N, t.val < 64
    ∧ win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-- The array row that row p of a block at point t is. -/
def row (t : Fin cfg0.N) (p : Fin 256) : Fin 16384 := ⟨256 * t.val + p.val, by
  have := (index_facts t).1; have := p.isLt; omega⟩

/-- Row p of the first integer block at point t is row 256·t + p of the first integer argument. -/
theorem iblk0_apply (c : Dev nD) (t : Fin cfg0.N) (p : Fin 256) (n : Fin 50) :
    (iblk m c 0 t : Vec Ideal S256x50 .i32) (ix2 p n) = (m ((c : Thread nD τ).loc main_arg0) : S16384x50.Idx → BitVec 32) (ix2 (row t p) n) := by
  obtain ⟨-, e0, e1, -⟩ := index_facts t
  show V m c main_arg0 (((cfg0.win 0).blk t).view.emb (ix2 p n)) = _
  refine congrArg (m ((c : Thread nD τ).loc main_arg0)) (funext fun a => Fin.ext ?_)
  match a with
  | ⟨0, _⟩ => show win0_0.index t (0 : Fin 2) * 256 + 1 * p.val = 256 * t.val + p.val; rw [e0]; omega
  | ⟨1, _⟩ => show win0_0.index t (1 : Fin 2) * 50 + 1 * n.val = n.val; rw [e1]; omega

/-- The same for the second integer block. -/
theorem iblk1_apply (c : Dev nD) (t : Fin cfg0.N) (p : Fin 256) (n : Fin 50) :
    (iblk m c 1 t : Vec Ideal S256x50 .i32) (ix2 p n) = (m ((c : Thread nD τ).loc main_arg1) : S16384x50.Idx → BitVec 32) (ix2 (row t p) n) := by
  obtain ⟨-, -, -, e0, e1, -⟩ := index_facts t
  show V m c main_arg1 (((cfg0.win 1).blk t).view.emb (ix2 p n)) = _
  refine congrArg (m ((c : Thread nD τ).loc main_arg1)) (funext fun a => Fin.ext ?_)
  match a with
  | ⟨0, _⟩ => show win0_1.index t (0 : Fin 2) * 256 + 1 * p.val = 256 * t.val + p.val; rw [e0]; omega
  | ⟨1, _⟩ => show win0_1.index t (1 : Fin 2) * 50 + 1 * n.val = n.val; rw [e1]; omega

/-- Row p of the first float block at point t is row 256·t + p of the first float argument. -/
theorem iblk2_apply (c : Dev nD) (t : Fin cfg0.N) (p : Fin 256) (n : Fin 50) (d : Fin 128) :
    (iblk m c 2 t : Vec Ideal S256x50x128 .f32) (ix3 p n d) = (m ((c : Thread nD τ).loc main_arg2) : S16384x50x128.Idx → EReal) (ix3 (row t p) n d) := by
  obtain ⟨-, -, -, -, -, e0, e1, e2, -⟩ := index_facts t
  show V m c main_arg2 (((cfg0.win 2).blk t).view.emb (ix3 p n d)) = _
  refine congrArg (m ((c : Thread nD τ).loc main_arg2)) (funext fun a => Fin.ext ?_)
  match a with
  | ⟨0, _⟩ => show win0_2.index t (0 : Fin 3) * 256 + 1 * p.val = 256 * t.val + p.val; rw [e0]; omega
  | ⟨1, _⟩ => show win0_2.index t (1 : Fin 3) * 50 + 1 * n.val = n.val; rw [e1]; omega
  | ⟨2, _⟩ => show win0_2.index t (2 : Fin 3) * 128 + 1 * d.val = d.val; rw [e2]; omega

/-- The same for the second float block. -/
theorem iblk3_apply (c : Dev nD) (t : Fin cfg0.N) (p : Fin 256) (n : Fin 50) (d : Fin 128) :
    (iblk m c 3 t : Vec Ideal S256x50x128 .f32) (ix3 p n d) = (m ((c : Thread nD τ).loc main_arg3) : S16384x50x128.Idx → EReal) (ix3 (row t p) n d) := by
  obtain ⟨-, -, -, -, -, -, -, -, e0, e1, e2, -⟩ := index_facts t
  show V m c main_arg3 (((cfg0.win 3).blk t).view.emb (ix3 p n d)) = _
  refine congrArg (m ((c : Thread nD τ).loc main_arg3)) (funext fun a => Fin.ext ?_)
  match a with
  | ⟨0, _⟩ => show win0_3.index t (0 : Fin 3) * 256 + 1 * p.val = 256 * t.val + p.val; rw [e0]; omega
  | ⟨1, _⟩ => show win0_3.index t (1 : Fin 3) * 50 + 1 * n.val = n.val; rw [e1]; omega
  | ⟨2, _⟩ => show win0_3.index t (2 : Fin 3) * 128 + 1 * d.val = d.val; rw [e2]; omega

/-- The result array as a function of the arguments as launched: the contracted arrangement, row by row. -/
abbrev result (c : Dev nD) : S16384x1.Idx → EReal :=
  rowsContracted (m ((c : Thread nD τ).loc main_arg0)) (m ((c : Thread nD τ).loc main_arg1))
    (m ((c : Thread nD τ).loc main_arg2)) (m ((c : Thread nD τ).loc main_arg3))

/-- What point t writes back is block t of the result. -/
theorem flushed_eq (c : Dev nD) (t : Fin cfg0.N) :
    (dats m 0 c).flushed 4 t = ((cfg0.win 4).blk t).view.read (Elt Ideal) (result m c) := by
  rw [Value.flushed4]
  funext y
  obtain ⟨p, q, rfl⟩ : ∃ (p : Fin 256) (q : Fin 1), y = ix2 p q := ⟨y 0, y 1, eq_ix2 y⟩
  show out0_4 (iblk m c 0 t) (iblk m c 1 t) (iblk m c 2 t) (iblk m c 3 t) (ix2 p q) = result m c (((cfg0.win 4).blk t).view.emb (ix2 p q))
  refine (Cert.KernelIdeal.Body.out_row (iblk m c 0 t) (iblk m c 1 t) (iblk m c 2 t) (iblk m c 3 t) p q).trans ?_
  obtain ⟨-, -, -, -, -, -, -, -, -, -, -, e0, e1⟩ := index_facts t
  have hr : (((cfg0.win 4).blk t).view.emb (ix2 p q)) 0 = row t p := Fin.ext (by
    show win0_4.index t (0 : Fin 2) * 256 + 1 * p.val = 256 * t.val + p.val; rw [e0]; omega)
  show _ = contracted _ _ _ _
  rw [hr]
  simp only [iblk0_apply, iblk1_apply, iblk2_apply, iblk3_apply]

/-- An index of the result array is in point t's block iff each coordinate is in the block's range on its axis. -/
theorem mem_blk (t : Fin cfg0.N) (i : S16384x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v0).slice (win0_4.rect t)).set ↔ _
  rw [View.set_slice_whole, Rect.mem_set_unit]
  exact Iff.rfl

/-- Every row lies in some point's block: row r in the block of point r / 256. -/
theorem cover (i : S16384x1.Idx) : ∃ t : Fin cfg0.N, (cfg0.win 4).flush t = true ∧ i ∈ ((cfg0.win 4).blk t).view.set := by
  have hi0 : (i 0).val < 16384 := (i 0).isLt
  have hi1 : (i 1).val < 1 := (i 1).isLt
  have hN : (i 0).val / 256 < cfg0.N := by show (i 0).val / 256 < 64; omega
  refine ⟨⟨(i 0).val / 256, hN⟩, flush0_4 _, ?_⟩
  obtain ⟨-, -, -, -, -, -, -, -, -, -, -, e0, e1⟩ := index_facts ⟨(i 0).val / 256, hN⟩
  rw [mem_blk]
  intro a
  match a with
  | ⟨0, _⟩ =>
    show win0_4.index ⟨(i 0).val / 256, hN⟩ (0 : Fin 2) * 256 ≤ (i 0).val ∧ (i 0).val < win0_4.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_4.index ⟨(i 0).val / 256, hN⟩ (1 : Fin 2) * 1 ≤ (i 1).val ∧ (i 1).val < win0_4.index ⟨(i 0).val / 256, hN⟩ (1 : Fin 2) * 1 + 1
    rw [e1]; omega

/-- After the run the result array holds the contracted arrangement of the arguments. -/
theorem final (c : Dev nD) : (dats m 0 c).arrAt 4 cfg0.N = result m c :=
  (dats m 0 c).arrAt_eq_of_cover 4 (result m c) (fun t _ => flushed_eq m c t) cover

/-- The run, read: the result array at the contracted arrangement, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Rows

end
-- ==== Proof.RefRows.lean ====
/- The reference's result array, read row by row. Its program clips the two integer arrays to 0/1 weights, forms the
   batched product P[b, n, m] = Σ_d V0[b, n, d] · V1[b, m, d], multiplies it by the first weights broadcast along m and by
   the second weights broadcast along n, and sums over (n, m) from zero: row b of the result is the pairwise arrangement
   of that row's weights and matrices. -/
import proofs.«128722_j77833397338356_2_alg».proof.Proof.Gen.ReferenceIdeal.Run
import proofs.«128722_j77833397338356_2_alg».proof.Proof.Gen.ReferenceIdeal.Read
import Idealize.ShloMosaic.Lib.ValueIdx
import Idealize.ShloMosaic.PureOps.Ideal.Laws
import proofs.«128722_j77833397338356_2_alg».proof.Proof.LibChunkReads
import proofs.«128722_j77833397338356_2_alg».proof.Proof.PairSum

noncomputable section

open scoped BigOperators

namespace Cert.ReferenceIdeal.Rows

open Cert.ReferenceIdeal Cert.ReferenceIdeal.Gen Cert.ReferenceIdeal.Read Idealize.ShloMosaic Idealize.ShloMosaic.ValueIdx
open Cert.Lib.ChunkReads Cert.PairSum

/-- The first weights: the first integer array clipped to [0, 1] and read as floats. -/
theorem weight0 (x0 : (⟨S16384x50, .i32⟩ : BufTy).Contents (Elt Ideal)) (j : S16384x50.Idx) :
    val_main_v1 (F := Ideal) x0 j = mask (x0 j) := rfl

/-- The second weights. -/
theorem weight1 (x1 : (⟨S16384x50, .i32⟩ : BufTy).Contents (Elt Ideal)) (j : S16384x50.Idx) :
    val_main_v3 (F := Ideal) x1 j = mask (x1 j) := rfl

/-- The weighted product at (b, g, e): the inner product of row g of V0[b] with row e of V1[b], times the two weights. -/
theorem weighted_apply (x0 x1 : (⟨S16384x50, .i32⟩ : BufTy).Contents (Elt Ideal))
    (x2 x3 : (⟨S16384x50x128, .f32⟩ : BufTy).Contents (Elt Ideal)) (b : Fin 16384) (g e : Fin 50) :
    val_main_v10 (F := Ideal) x0 x1 x2 x3 (ix3 b g e)
      = ((∑ d : Fin 128, x2 (ix3 b g d) * x3 (ix3 b e d)) * mask (x0 (ix2 b g))) * mask (x1 (ix2 b e)) := by
  have hl : ∀ k : Fin 128, lidx_main_v4 (ix3 b g e) k = ix3 b g k := fun k => funext fun a => by
    match a with
    | ⟨0, _⟩ => rfl
    | ⟨1, _⟩ => rfl
    | ⟨2, _⟩ => rfl
  have hr : ∀ k : Fin 128, ridx_main_v4 (ix3 b g e) k = ix3 b e k := fun k => funext fun a => by
    match a with
    | ⟨0, _⟩ => rfl
    | ⟨1, _⟩ => rfl
    | ⟨2, _⟩ => rfl
  have h5 : idx_main_v5 (idx_main_v6 (ix3 b g e)) = ix2 b g := funext fun a => by
    match a with
    | ⟨0, _⟩ => rfl
    | ⟨1, _⟩ => rfl
  have h8 : idx_main_v8 (idx_main_v9 (ix3 b g e)) = ix2 b e := funext fun a => by
    match a with
    | ⟨0, _⟩ => rfl
    | ⟨1, _⟩ => rfl
  rw [val_main_v10_apply, val_main_v7_apply, val_main_v4_apply, val_main_v6_apply, val_main_v5_apply, val_main_v9_apply,
    val_main_v8_apply, weight0, weight1, h5, h8]
  simp only [hl, hr, Ideal.mulf_def]

/-- The reference's result array is the pairwise arrangement, row by row. -/
theorem result_eq (x0 x1 : (⟨S16384x50, .i32⟩ : BufTy).Contents (Elt Ideal))
    (x2 x3 : (⟨S16384x50x128, .f32⟩ : BufTy).Contents (Elt Ideal)) :
    val_main_v12 (F := Ideal) x0 x1 x2 x3 = rowsPairwise x0 x1 x2 x3 := by
  funext i
  obtain ⟨b, q, rfl⟩ : ∃ (b : Fin 16384) (q : Fin 1), i = ix2 b q := ⟨i 0, i 1, eq_ix2 i⟩
  have hi : idx_main_v12 (ix2 b q) = ix1 b := funext fun a => by
    match a with
    | ⟨0, _⟩ => rfl
  rw [val_main_v12_apply, hi]
  unfold val_main_v11 val_main_cst
  refine (hostSumTrailing_apply (val_main_v10 (F := Ideal) x0 x1 x2 x3) reducesTo_S16384x50x50_S16384_d1_2 h_S_ b).trans ?_
  exact Finset.sum_congr rfl fun g _ => Finset.sum_congr rfl fun e _ => weighted_apply x0 x1 x2 x3 b g e

end Cert.ReferenceIdeal.Rows

end
-- ==== Proof.lean ====
/- The certificate's claims, assembled.

   For each of 16384 rows the programs take two integer vectors of 50 words and two 50 × 128 float matrices. Both clip the
   words to 0/1 weights r, c. The kernel, tiled 256 rows to a grid point, forms u_d = Σ_n r_n · x_{n,d} and
   v_d = Σ_m c_m · y_{m,d} (each accumulated over seven chunks of positions) and writes Σ_d u_d · v_d; the reference forms
   every inner product Σ_d x_{n,d} · y_{m,d}, weights it by r_n · c_m and sums over the pairs (n, m). Under the
   precondition every float entry is a real number, so the two are equal by distributivity and a change of the order of
   summation (PairSum); on infinite entries they can differ, and the precondition is used exactly there.

   The three frames come from the generated frame proofs and the reference's generated run; the idealization rewrote
   nothing, so that conjunct is trivial. -/
import proofs.«128722_j77833397338356_2_alg».proof.Defs
import proofs.«128722_j77833397338356_2_alg».proof.Proof.Gen.Kernel
import proofs.«128722_j77833397338356_2_alg».proof.Proof.Gen.Kernel.Skeleton
import proofs.«128722_j77833397338356_2_alg».proof.Proof.Gen.Kernel.Launch
import proofs.«128722_j77833397338356_2_alg».proof.Proof.Gen.Kernel.Points
import proofs.«128722_j77833397338356_2_alg».proof.Proof.Gen.Kernel.Frame
import proofs.«128722_j77833397338356_2_alg».proof.Proof.Gen.KernelIdeal
import proofs.«128722_j77833397338356_2_alg».proof.Proof.Gen.KernelIdeal.Skeleton
import proofs.«128722_j77833397338356_2_alg».proof.Proof.Gen.KernelIdeal.Launch
import proofs.«128722_j77833397338356_2_alg».proof.Proof.Gen.KernelIdeal.Points
import proofs.«128722_j77833397338356_2_alg».proof.Proof.Gen.KernelIdeal.Frame
import proofs.«128722_j77833397338356_2_alg».proof.Proof.Gen.ReferenceIdeal
import proofs.«128722_j77833397338356_2_alg».proof.Proof.Gen.Pre_finite_inputs
import proofs.«128722_j77833397338356_2_alg».proof.Proof.Gen.KernelIdeal.Value
import proofs.«128722_j77833397338356_2_alg».proof.Proof.Gen.ReferenceIdeal.Run
import proofs.«128722_j77833397338356_2_alg».proof.Proof.Gen.ReferenceIdeal.Read
import proofs.«128722_j77833397338356_2_alg».proof.Proof.PairSum
import proofs.«128722_j77833397338356_2_alg».proof.Proof.FiniteEntries
import proofs.«128722_j77833397338356_2_alg».proof.Proof.KernelRows
import proofs.«128722_j77833397338356_2_alg».proof.Proof.RefRows
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end; the kernel's result array is the contracted arrangement of the arguments, the reference's the pairwise
    arrangement of arguments that agree with the kernel's; the float entries are real by the precondition, so the two
    arrays are equal. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  obtain ⟨h2, h3⟩ := Cert.FiniteEntries.isReal_of_pre _ _ _ _ (hpre c)
  rw [Cert.ReferenceIdeal.Read.val_main_v12_eq, Cert.ReferenceIdeal.Rows.result_eq, (hagree c).1, (hagree c).2.1,
    (hagree c).2.2.1, (hagree c).2.2.2]
  exact Cert.PairSum.rowsPairwise_eq_rowsContracted _ _ _ _ h2 h3

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
